-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S640000x1 .f32) (main_arg3 : IVec S100000 32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S3x128x128 : Shape := ⟨3, ![3, 128, 128]⟩
abbrev S3x128 : Shape := ⟨2, ![3, 128]⟩
abbrev S640000 : Shape := ⟨1, ![640000]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S10000x128 : Shape := ⟨2, ![10000, 128]⟩
abbrev S740000x128 : Shape := ⟨2, ![740000, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 137
  | .vmem => 15
  | .smem => 0
  | _ => 0

abbrev hbmTy0_0 (i : Nat) : BufTy := match i % 128 with
  | 0 => ⟨S100000x128, .f32⟩
  | 1 => ⟨S2x640000, .i32⟩
  | 2 => ⟨S640000x1, .f32⟩
  | 3 => ⟨S100000, .i32⟩
  | 4 => ⟨S3x128x128, .f32⟩
  | 5 => ⟨S3x128, .f32⟩
  | 6 => ⟨S640000, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S100000, .f32⟩
  | 16 => ⟨S740000, .f32⟩
  | 17 => ⟨S_, .f32⟩
  | 18 => ⟨S100000, .f32⟩
  | 19 => ⟨S740000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S740000, .i32⟩
  | 31 => ⟨S740000, .i1⟩
  | 32 => ⟨S_, .i32⟩
  | 33 => ⟨S740000, .i32⟩
  | 34 => ⟨S740000, .i32⟩
  | 35 => ⟨S740000, .i32⟩
  | 36 => ⟨S740000x1, .i32⟩
  | 37 => ⟨S740000, .f32⟩
  | 38 => ⟨S740000, .f32⟩
  | 39 => ⟨S_, .i32⟩
  | 40 => ⟨S740000, .i32⟩
  | 41 => ⟨S740000, .i1⟩
  | 42 => ⟨S_, .i32⟩
  | 43 => ⟨S740000, .i32⟩
  | 44 => ⟨S740000, .i32⟩
  | 45 => ⟨S740000, .i32⟩
  | 46 => ⟨S740000x1, .i32⟩
  | 47 => ⟨S740000, .f32⟩
  | 48 => ⟨S740000, .f32⟩
  | 49 => ⟨S1x128x128, .f32⟩
  | 50 => ⟨S128x128, .f32⟩
  | 51 => ⟨S100000x128, .f32⟩
  | 52 => ⟨S740000x1, .f32⟩
  | 53 => ⟨S_, .i32⟩
  | 54 => ⟨S740000, .i32⟩
  | 55 => ⟨S740000, .i1⟩
  | 56 => ⟨S_, .i32⟩
  | 57 => ⟨S740000, .i32⟩
  | 58 => ⟨S740000, .i32⟩
  | 59 => ⟨S740000, .i32⟩
  | 60 => ⟨S740000x1, .i32⟩
  | 61 => ⟨S740000x128, .f32⟩
  | 62 => ⟨S740000x128, .f32⟩
  | 63 => ⟨S740000x128, .f32⟩
  | 64 => ⟨S_, .f32⟩
  | 65 => ⟨S100000x128, .f32⟩
  | 66 => ⟨S740000x1, .i32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S740000x1, .f32⟩
  | 77 => ⟨S_, .i32⟩
  | 78 => ⟨S740000, .i32⟩
  | 79 => ⟨S740000, .i1⟩
  | 80 => ⟨S_, .i32⟩
  | 81 => ⟨S740000, .i32⟩
  | 82 => ⟨S740000, .i32⟩
  | 83 => ⟨S740000, .i32⟩
  | 84 => ⟨S740000x1, .i32⟩
  | 85 => ⟨S740000x128, .f32⟩
  | 86 => ⟨S740000x128, .f32⟩
  | 87 => ⟨S740000x128, .f32⟩
  | 88 => ⟨S_, .f32⟩
  | 89 => ⟨S100000x128, .f32⟩
  | 90 => ⟨S740000x1, .i32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S740000x1, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000x128, .f32⟩
  | 110 => ⟨S740000x128, .f32⟩
  | 111 => ⟨S740000x128, .f32⟩
  | 112 => ⟨S_, .f32⟩
  | 113 => ⟨S100000x128, .f32⟩
  | 114 => ⟨S740000x1, .i32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S64x128, .f32⟩
  | 123 => ⟨S100000x1, .i32⟩
  | 124 => ⟨S64x128, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S64, .f32⟩
  | 1 => ⟨S100000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_12 : Ref sig .tc := ⟨.hbm, 101, rfl⟩
abbrev main_v79 : Ref sig .tc := ⟨.hbm, 102, rfl⟩
abbrev main_v80 : Ref sig .tc := ⟨.hbm, 103, rfl⟩
abbrev main_c_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_15 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S640000x1_S640000 : S640000x1.ShapeCasts S640000
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  shapeCasts_S10000x128_S10000x128 : S10000x128.ShapeCasts S10000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S3x128x128 : Shape := ⟨3, ![3, 128, 128]⟩
abbrev S3x128 : Shape := ⟨2, ![3, 128]⟩
abbrev S640000 : Shape := ⟨1, ![640000]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S740000x128 : Shape := ⟨2, ![740000, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x640000, .i32⟩
  | 2 => ⟨S640000x1, .f32⟩
  | 3 => ⟨S100000, .i32⟩
  | 4 => ⟨S3x128x128, .f32⟩
  | 5 => ⟨S3x128, .f32⟩
  | 6 => ⟨S640000, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S100000, .f32⟩
  | 16 => ⟨S740000, .f32⟩
  | 17 => ⟨S_, .f32⟩
  | 18 => ⟨S100000, .f32⟩
  | 19 => ⟨S740000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S740000, .i32⟩
  | 31 => ⟨S740000, .i1⟩
  | 32 => ⟨S_, .i32⟩
  | 33 => ⟨S740000, .i32⟩
  | 34 => ⟨S740000, .i32⟩
  | 35 => ⟨S740000, .i32⟩
  | 36 => ⟨S740000x1, .i32⟩
  | 37 => ⟨S740000, .f32⟩
  | 38 => ⟨S740000, .f32⟩
  | 39 => ⟨S_, .i32⟩
  | 40 => ⟨S740000, .i32⟩
  | 41 => ⟨S740000, .i1⟩
  | 42 => ⟨S_, .i32⟩
  | 43 => ⟨S740000, .i32⟩
  | 44 => ⟨S740000, .i32⟩
  | 45 => ⟨S740000, .i32⟩
  | 46 => ⟨S740000x1, .i32⟩
  | 47 => ⟨S740000, .f32⟩
  | 48 => ⟨S740000, .f32⟩
  | 49 => ⟨S1x128x128, .f32⟩
  | 50 => ⟨S128x128, .f32⟩
  | 51 => ⟨S100000x128, .f32⟩
  | 52 => ⟨S740000x1, .f32⟩
  | 53 => ⟨S_, .i32⟩
  | 54 => ⟨S740000, .i32⟩
  | 55 => ⟨S740000, .i1⟩
  | 56 => ⟨S_, .i32⟩
  | 57 => ⟨S740000, .i32⟩
  | 58 => ⟨S740000, .i32⟩
  | 59 => ⟨S740000, .i32⟩
  | 60 => ⟨S740000x1, .i32⟩
  | 61 => ⟨S740000x128, .f32⟩
  | 62 => ⟨S740000x128, .f32⟩
  | 63 => ⟨S740000x128, .f32⟩
  | 64 => ⟨S_, .f32⟩
  | 65 => ⟨S100000x128, .f32⟩
  | 66 => ⟨S740000x1, .i32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S740000x1, .f32⟩
  | 77 => ⟨S_, .i32⟩
  | 78 => ⟨S740000, .i32⟩
  | 79 => ⟨S740000, .i1⟩
  | 80 => ⟨S_, .i32⟩
  | 81 => ⟨S740000, .i32⟩
  | 82 => ⟨S740000, .i32⟩
  | 83 => ⟨S740000, .i32⟩
  | 84 => ⟨S740000x1, .i32⟩
  | 85 => ⟨S740000x128, .f32⟩
  | 86 => ⟨S740000x128, .f32⟩
  | 87 => ⟨S740000x128, .f32⟩
  | 88 => ⟨S_, .f32⟩
  | 89 => ⟨S100000x128, .f32⟩
  | 90 => ⟨S740000x1, .i32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S740000x1, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000x128, .f32⟩
  | 110 => ⟨S740000x128, .f32⟩
  | 111 => ⟨S740000x128, .f32⟩
  | 112 => ⟨S_, .f32⟩
  | 113 => ⟨S100000x128, .f32⟩
  | 114 => ⟨S740000x1, .i32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S64x128, .f32⟩
  | 123 => ⟨S100000x1, .i32⟩
  | 124 => ⟨S64x128, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S64, .f32⟩
  | 1 => ⟨S100000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_12 : Ref sig .tc := ⟨.hbm, 101, rfl⟩
abbrev main_v79 : Ref sig .tc := ⟨.hbm, 102, rfl⟩
abbrev main_v80 : Ref sig .tc := ⟨.hbm, 103, rfl⟩
abbrev main_c_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_15 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]

class Facts₀ : Prop where
  shapeCasts_S640000x1_S640000 : S640000x1.ShapeCasts S640000
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  slices_S3x128x128_S1x128x128_0_0_0 : S3x128x128.Slices ![0, 0, 0] S1x128x128
  shapeCasts_S1x128x128_S128x128 : S1x128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The kernel program's run with its result named.

  @main is nine segments: stretches of host operations around three pipelined regions. The contents of every
  buffer at each segment boundary are a fold from the launch memory (`Gen.W0` … `Gen.W9`: a host stretch applies its
  operations in order, a region replaces its result array by what its write-backs leave). Every weakly fair
  execution terminates with every unscoped buffer at the last boundary's contents `Gen.W9`; read at the result
  buffer this names the kernel's result, and read at the argument buffers it gives them back unchanged.
-/
import proofs.«164463_j11072425689891_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six argument arrays as launched. -/
theorem run_result : θ_run defs (onTc (τ := τ) (main (F := F))) ⟨m, fun _ => 0, ρ⟩ (fun r => ∀ c : Dev nD,
      r.2.mem ((c.tc : Thread nD τ).loc main_v107) = W9 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v107 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.BlockProduct.lean ====
/-
  What the kernel body computes on one block, at the ideal values.

  Each of the three linear-layer kernels loads a block of 10000 rows of its left operand and the whole 128 × 128
  right operand, rounds both to bf16 — the identity on extended reals —, multiplies them on the matrix unit into a
  zero accumulator, and stores the product. So its stored value is `matProd` of the two loaded blocks:
  the matrix product, entry by entry.
-/
import proofs.«164463_j11072425689891_1_alg».proof.Proof.Gen.KernelIdeal.Skeleton
import proofs.«164463_j11072425689891_1_alg».proof.Proof.LibMatProd
import Idealize.ShloMosaic.Lib.Pipeline.Value

noncomputable section

namespace Cert.KernelIdeal.Blocks

open Idealize.ShloMosaic Cert.KernelIdeal Cert.KernelIdeal.Gen Cert.Linear

/-- The body's matrix-unit product contracts the left block's columns with the right operand's rows, and keeps the
    left block's rows and the right operand's columns. -/
theorem block_contracts : Contracts (R := 10000) (K := 128) (N := 128) dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- The first layer's stored block: the loaded rows times the loaded weights. -/
theorem pay0_eq (x0 : Vec Ideal S10000x128 .f32) (x1 : Vec Ideal S128x128 .f32) :
    k0_pay1 (F := Ideal) x0 x1 = matProd (R := 10000) (K := 128) (N := 128) x0 x1 := by
  unfold k0_pay1
  rw [shapeCast_self]
  exact matmul_zero_eq block_contracts none _ _

/-- The second layer's stored block: the same product (its loads pass through identity shape casts first). -/
theorem pay1_eq (x0 : Vec Ideal S10000x128 .f32) (x1 : Vec Ideal S128x128 .f32) :
    k1_pay1 (F := Ideal) x0 x1 = matProd (R := 10000) (K := 128) (N := 128) x0 x1 := by
  unfold k1_pay1
  rw [shapeCast_self, shapeCast_self]
  exact matmul_zero_eq block_contracts none _ _

/-- The third layer's stored block: the same product. -/
theorem pay2_eq (x0 : Vec Ideal S10000x128 .f32) (x1 : Vec Ideal S128x128 .f32) :
    k2_pay1 (F := Ideal) x0 x1 = matProd (R := 10000) (K := 128) (N := 128) x0 x1 := by
  unfold k2_pay1
  rw [shapeCast_self, shapeCast_self]
  exact matmul_zero_eq block_contracts none _ _

end Cert.KernelIdeal.Blocks

end
-- ==== Proof.Region0.lean ====
/-
  The first linear layer's region: what its result array holds once every grid point has written back.

  The pipeline walks ten grid points; at point `t` it stages rows `10000·t … 10000·t + 9999` of the left operand,
  the whole right operand, and writes the body's product back to the same rows of the result. A row block of a
  product `X · W` is the product of that row block of `X` with `W`, so what point `t` writes back is block `t`
  of the ONE array `matProd X W`; the ten blocks tile the 100000 rows, hence the result array ends holding
  `matProd X W`, where `X` and `W` are the two operand arrays as the region finds them (`V`, a parameter here).
-/
import proofs.«164463_j11072425689891_1_alg».proof.Proof.Gen.KernelIdeal.Frame
import proofs.«164463_j11072425689891_1_alg».proof.Proof.BlockProduct
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Linear Cert.KernelIdeal.Blocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block index is `(t, 0)`, the right
    operand's is `(0, 0)` at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The left operand's block at point `t` is rows `10000·t …` of its array. -/
theorem lhs_block (c : Dev nD) (t : Fin cfg0.N) (x : S10000x128.Idx) (y : S100000x128.Idx)
    (h0 : (y 0).val = t.val * 10000 + (x 0).val) (h1 : (y 1).val = (x 1).val) :
    (iblk0 V c 0 t : Vec Ideal S10000x128 .f32) x = (V c main_arg0 : S100000x128.Idx → EReal) y := by
  obtain ⟨e0, e1, -, -, -, -⟩ := idx_facts t
  show V c main_arg0 (((cfg0.win 0).blk t).view.emb x) = V c main_arg0 y
  refine congrArg (V c main_arg0) (funext fun a => Fin.ext ?_)
  match a with
  | ⟨0, _⟩ => show win0_0.index t (0 : Fin 2) * 10000 + 1 * (x 0).val = (y 0).val; rw [e0, h0]; omega
  | ⟨1, _⟩ => show win0_0.index t (1 : Fin 2) * 128 + 1 * (x 1).val = (y 1).val; rw [e1, h1]; omega

/-- The right operand's block at every point is its whole array. -/
theorem rhs_block (c : Dev nD) (t : Fin cfg0.N) (x : S128x128.Idx) (y : S128x128.Idx)
    (h0 : (y 0).val = (x 0).val) (h1 : (y 1).val = (x 1).val) :
    (iblk0 V c 1 t : Vec Ideal S128x128 .f32) x = (V c main_v34 : S128x128.Idx → EReal) y := by
  obtain ⟨-, -, e2, e3, -, -⟩ := idx_facts t
  show V c main_v34 (((cfg0.win 1).blk t).view.emb x) = V c main_v34 y
  refine congrArg (V c main_v34) (funext fun a => Fin.ext ?_)
  match a with
  | ⟨0, _⟩ => show win0_1.index t (0 : Fin 2) * 128 + 1 * (x 0).val = (y 0).val; rw [e2, h0]; omega
  | ⟨1, _⟩ => show win0_1.index t (1 : Fin 2) * 128 + 1 * (x 1).val = (y 1).val; rw [e3, h1]; omega

/-- WHAT POINT `t` WRITES BACK is block `t` of the product of the two operand arrays. -/
theorem flushed_eq (c : Dev nD) (t : Fin cfg0.N) :
    (dat0 V c).flushed 2 t = ((cfg0.win 2).blk t).view.read (Elt Ideal)
      (matProd (R := 100000) (K := 128) (N := 128) (V c main_arg0) (V c main_v34)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay0_eq]
  obtain ⟨-, -, -, -, e4, e5⟩ := idx_facts t
  funext j
  show matProd (R := 10000) (K := 128) (N := 128) (iblk0 V c 0 t) (iblk0 V c 1 t) j
    = matProd (R := 100000) (K := 128) (N := 128) (V c main_arg0) (V c main_v34) (((cfg0.win 2).blk t).view.emb j)
  unfold matProd
  refine Finset.sum_congr rfl fun k _ => ?_
  refine congrArg₂ (· * ·) (lhs_block V c t _ _ ?_ rfl) (rhs_block V c t _ _ rfl ?_)
  · show win0_2.index t (0 : Fin 2) * 10000 + 1 * (j 0).val = t.val * 10000 + (j 0).val
    rw [e4]; omega
  · show win0_2.index t (1 : Fin 2) * 128 + 1 * (j 1).val = (j 1).val
    rw [e5]; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v35).slice (win0_2.rect t)).set ↔ _
  rw [View.set_slice_whole, Rect.mem_set_unit]
  exact Iff.rfl

/-- Every row of the result is in some point's block: row `r` in point `r / 10000`'s. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- THE RESULT ARRAY after the region: the product of the two operand arrays as the region found them. -/
theorem final (c : Dev nD) :
    (dat0 V c).arrAt 2 cfg0.N = matProd (R := 100000) (K := 128) (N := 128) (V c main_arg0) (V c main_v34) :=
  (dat0 V c).arrAt_eq_of_cover 2 (matProd (R := 100000) (K := 128) (N := 128) (V c main_arg0) (V c main_v34))
    (fun t _ => flushed_eq V c t) (cover)

end Cert.KernelIdeal.Region0

end
-- ==== Proof.Region1.lean ====
/-
  The second linear layer's region: what its result array holds once every grid point has written back.

  The pipeline walks ten grid points; at point `t` it stages rows `10000·t … 10000·t + 9999` of the left operand,
  the whole right operand, and writes the body's product back to the same rows of the result. A row block of a
  product `X · W` is the product of that row block of `X` with `W`, so what point `t` writes back is block `t`
  of the ONE array `matProd X W`; the ten blocks tile the 100000 rows, hence the result array ends holding
  `matProd X W`, where `X` and `W` are the two operand arrays as the region finds them (`V`, a parameter here).
-/
import proofs.«164463_j11072425689891_1_alg».proof.Proof.Gen.KernelIdeal.Frame
import proofs.«164463_j11072425689891_1_alg».proof.Proof.BlockProduct
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Linear Cert.KernelIdeal.Blocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block index is `(t, 0)`, the right
    operand's is `(0, 0)` at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The left operand's block at point `t` is rows `10000·t …` of its array. -/
theorem lhs_block (c : Dev nD) (t : Fin cfg1.N) (x : S10000x128.Idx) (y : S100000x128.Idx)
    (h0 : (y 0).val = t.val * 10000 + (x 0).val) (h1 : (y 1).val = (x 1).val) :
    (iblk1 V c 0 t : Vec Ideal S10000x128 .f32) x = (V c main_v53 : S100000x128.Idx → EReal) y := by
  obtain ⟨e0, e1, -, -, -, -⟩ := idx_facts t
  show V c main_v53 (((cfg1.win 0).blk t).view.emb x) = V c main_v53 y
  refine congrArg (V c main_v53) (funext fun a => Fin.ext ?_)
  match a with
  | ⟨0, _⟩ => show win1_0.index t (0 : Fin 2) * 10000 + 1 * (x 0).val = (y 0).val; rw [e0, h0]; omega
  | ⟨1, _⟩ => show win1_0.index t (1 : Fin 2) * 128 + 1 * (x 1).val = (y 1).val; rw [e1, h1]; omega

/-- The right operand's block at every point is its whole array. -/
theorem rhs_block (c : Dev nD) (t : Fin cfg1.N) (x : S128x128.Idx) (y : S128x128.Idx)
    (h0 : (y 0).val = (x 0).val) (h1 : (y 1).val = (x 1).val) :
    (iblk1 V c 1 t : Vec Ideal S128x128 .f32) x = (V c main_v55 : S128x128.Idx → EReal) y := by
  obtain ⟨-, -, e2, e3, -, -⟩ := idx_facts t
  show V c main_v55 (((cfg1.win 1).blk t).view.emb x) = V c main_v55 y
  refine congrArg (V c main_v55) (funext fun a => Fin.ext ?_)
  match a with
  | ⟨0, _⟩ => show win1_1.index t (0 : Fin 2) * 128 + 1 * (x 0).val = (y 0).val; rw [e2, h0]; omega
  | ⟨1, _⟩ => show win1_1.index t (1 : Fin 2) * 128 + 1 * (x 1).val = (y 1).val; rw [e3, h1]; omega

/-- WHAT POINT `t` WRITES BACK is block `t` of the product of the two operand arrays. -/
theorem flushed_eq (c : Dev nD) (t : Fin cfg1.N) :
    (dat1 V c).flushed 2 t = ((cfg1.win 2).blk t).view.read (Elt Ideal)
      (matProd (R := 100000) (K := 128) (N := 128) (V c main_v53) (V c main_v55)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  rw [pay1_eq]
  obtain ⟨-, -, -, -, e4, e5⟩ := idx_facts t
  funext j
  show matProd (R := 10000) (K := 128) (N := 128) (iblk1 V c 0 t) (iblk1 V c 1 t) j
    = matProd (R := 100000) (K := 128) (N := 128) (V c main_v53) (V c main_v55) (((cfg1.win 2).blk t).view.emb j)
  unfold matProd
  refine Finset.sum_congr rfl fun k _ => ?_
  refine congrArg₂ (· * ·) (lhs_block V c t _ _ ?_ rfl) (rhs_block V c t _ _ rfl ?_)
  · show win1_2.index t (0 : Fin 2) * 10000 + 1 * (j 0).val = t.val * 10000 + (j 0).val
    rw [e4]; omega
  · show win1_2.index t (1 : Fin 2) * 128 + 1 * (j 1).val = (j 1).val
    rw [e5]; omega

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v56).slice (win1_2.rect t)).set ↔ _
  rw [View.set_slice_whole, Rect.mem_set_unit]
  exact Iff.rfl

/-- Every row of the result is in some point's block: row `r` in point `r / 10000`'s. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 128 ≤ (i 1).val ∧ (i 1).val < win1_2.index t (1 : Fin 2) * 128 + 128
    rw [e5]; omega

/-- THE RESULT ARRAY after the region: the product of the two operand arrays as the region found them. -/
theorem final (c : Dev nD) :
    (dat1 V c).arrAt 2 cfg1.N = matProd (R := 100000) (K := 128) (N := 128) (V c main_v53) (V c main_v55) :=
  (dat1 V c).arrAt_eq_of_cover 2 (matProd (R := 100000) (K := 128) (N := 128) (V c main_v53) (V c main_v55))
    (fun t _ => flushed_eq V c t) (cover)

end Cert.KernelIdeal.Region1

end
-- ==== Proof.Region2.lean ====
/-
  The third linear layer's region: what its result array holds once every grid point has written back.

  The pipeline walks ten grid points; at point `t` it stages rows `10000·t … 10000·t + 9999` of the left operand,
  the whole right operand, and writes the body's product back to the same rows of the result. A row block of a
  product `X · W` is the product of that row block of `X` with `W`, so what point `t` writes back is block `t`
  of the ONE array `matProd X W`; the ten blocks tile the 100000 rows, hence the result array ends holding
  `matProd X W`, where `X` and `W` are the two operand arrays as the region finds them (`V`, a parameter here).
-/
import proofs.«164463_j11072425689891_1_alg».proof.Proof.Gen.KernelIdeal.Frame
import proofs.«164463_j11072425689891_1_alg».proof.Proof.BlockProduct
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.Linear Cert.KernelIdeal.Blocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block index is `(t, 0)`, the right
    operand's is `(0, 0)` at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- The left operand's block at point `t` is rows `10000·t …` of its array. -/
theorem lhs_block (c : Dev nD) (t : Fin cfg2.N) (x : S10000x128.Idx) (y : S100000x128.Idx)
    (h0 : (y 0).val = t.val * 10000 + (x 0).val) (h1 : (y 1).val = (x 1).val) :
    (iblk2 V c 0 t : Vec Ideal S10000x128 .f32) x = (V c main_v74 : S100000x128.Idx → EReal) y := by
  obtain ⟨e0, e1, -, -, -, -⟩ := idx_facts t
  show V c main_v74 (((cfg2.win 0).blk t).view.emb x) = V c main_v74 y
  refine congrArg (V c main_v74) (funext fun a => Fin.ext ?_)
  match a with
  | ⟨0, _⟩ => show win2_0.index t (0 : Fin 2) * 10000 + 1 * (x 0).val = (y 0).val; rw [e0, h0]; omega
  | ⟨1, _⟩ => show win2_0.index t (1 : Fin 2) * 128 + 1 * (x 1).val = (y 1).val; rw [e1, h1]; omega

/-- The right operand's block at every point is its whole array. -/
theorem rhs_block (c : Dev nD) (t : Fin cfg2.N) (x : S128x128.Idx) (y : S128x128.Idx)
    (h0 : (y 0).val = (x 0).val) (h1 : (y 1).val = (x 1).val) :
    (iblk2 V c 1 t : Vec Ideal S128x128 .f32) x = (V c main_v76 : S128x128.Idx → EReal) y := by
  obtain ⟨-, -, e2, e3, -, -⟩ := idx_facts t
  show V c main_v76 (((cfg2.win 1).blk t).view.emb x) = V c main_v76 y
  refine congrArg (V c main_v76) (funext fun a => Fin.ext ?_)
  match a with
  | ⟨0, _⟩ => show win2_1.index t (0 : Fin 2) * 128 + 1 * (x 0).val = (y 0).val; rw [e2, h0]; omega
  | ⟨1, _⟩ => show win2_1.index t (1 : Fin 2) * 128 + 1 * (x 1).val = (y 1).val; rw [e3, h1]; omega

/-- WHAT POINT `t` WRITES BACK is block `t` of the product of the two operand arrays. -/
theorem flushed_eq (c : Dev nD) (t : Fin cfg2.N) :
    (dat2 V c).flushed 2 t = ((cfg2.win 2).blk t).view.read (Elt Ideal)
      (matProd (R := 100000) (K := 128) (N := 128) (V c main_v74) (V c main_v76)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  rw [pay2_eq]
  obtain ⟨-, -, -, -, e4, e5⟩ := idx_facts t
  funext j
  show matProd (R := 10000) (K := 128) (N := 128) (iblk2 V c 0 t) (iblk2 V c 1 t) j
    = matProd (R := 100000) (K := 128) (N := 128) (V c main_v74) (V c main_v76) (((cfg2.win 2).blk t).view.emb j)
  unfold matProd
  refine Finset.sum_congr rfl fun k _ => ?_
  refine congrArg₂ (· * ·) (lhs_block V c t _ _ ?_ rfl) (rhs_block V c t _ _ rfl ?_)
  · show win2_2.index t (0 : Fin 2) * 10000 + 1 * (j 0).val = t.val * 10000 + (j 0).val
    rw [e4]; omega
  · show win2_2.index t (1 : Fin 2) * 128 + 1 * (j 1).val = (j 1).val
    rw [e5]; omega

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v77).slice (win2_2.rect t)).set ↔ _
  rw [View.set_slice_whole, Rect.mem_set_unit]
  exact Iff.rfl

/-- Every row of the result is in some point's block: row `r` in point `r / 10000`'s. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 128 ≤ (i 1).val ∧ (i 1).val < win2_2.index t (1 : Fin 2) * 128 + 128
    rw [e5]; omega

/-- THE RESULT ARRAY after the region: the product of the two operand arrays as the region found them. -/
theorem final (c : Dev nD) :
    (dat2 V c).arrAt 2 cfg2.N = matProd (R := 100000) (K := 128) (N := 128) (V c main_v74) (V c main_v76) :=
  (dat2 V c).arrAt_eq_of_cover 2 (matProd (R := 100000) (K := 128) (N := 128) (V c main_v74) (V c main_v76))
    (fun t _ => flushed_eq V c t) (cover)

end Cert.KernelIdeal.Region2

end
-- ==== Proof.RefProduct.lean ====
/-
  The reference's three linear layers, at the ideal values.

  Each is a host `dot_general` of a 100000 × 128 matrix with a 128 × 128 weight matrix, contracting the columns of
  the first with the rows of the second: the matrix product `matProd`, entry by entry.
-/
import proofs.«164463_j11072425689891_1_alg».proof.Proof.Gen.ReferenceIdeal.Read
import proofs.«164463_j11072425689891_1_alg».proof.Proof.LibMatProd

noncomputable section

namespace Cert.ReferenceIdeal.Products

open Idealize.ShloMosaic Cert.ReferenceIdeal Cert.ReferenceIdeal.Gen Cert.ReferenceIdeal.Read Cert.Linear

/-- The reference's `dot_general` contracts the left operand's columns with the right operand's rows, and keeps the
    left operand's rows and the right operand's columns. -/
theorem ref_contracts : Contracts (R := 100000) (K := 128) (N := 128) dot_S100000x128_S128x128_S100000x128_1_0_0_1_n_n where
  rank := rfl
  size := rfl
  lhs0 := lhs_main_v35_0
  lhs1 := lhs_main_v35_1
  rhs0 := rhs_main_v35_0
  rhs1 := rhs_main_v35_1

/-- The first layer: the input features times the first weight matrix. -/
theorem v35_eq (x0 : (⟨S100000x128, .f32⟩ : BufTy).Contents (Elt Ideal)) (x4 : (⟨S3x128x128, .f32⟩ : BufTy).Contents (Elt Ideal)) :
    val_main_v35 (F := Ideal) x0 x4 = matProd (R := 100000) (K := 128) (N := 128) x0 (val_main_v34 (F := Ideal) x4) := by
  unfold val_main_v35
  exact dotGeneral_eq ref_contracts none _ _ _

/-- The second layer: the first layer's aggregated output times the second weight matrix. -/
theorem v56_eq (x0 : (⟨S100000x128, .f32⟩ : BufTy).Contents (Elt Ideal)) (x1 : (⟨S2x640000, .i32⟩ : BufTy).Contents (Elt Ideal)) (x2 : (⟨S640000x1, .f32⟩ : BufTy).Contents (Elt Ideal)) (x4 : (⟨S3x128x128, .f32⟩ : BufTy).Contents (Elt Ideal)) (x5 : (⟨S3x128, .f32⟩ : BufTy).Contents (Elt Ideal)) :
    val_main_v56 (F := Ideal) x0 x1 x2 x4 x5
      = matProd (R := 100000) (K := 128) (N := 128) (val_main_v53 (F := Ideal) x0 x1 x2 x4 x5) (val_main_v55 (F := Ideal) x4) := by
  unfold val_main_v56
  exact dotGeneral_eq ref_contracts none _ _ _

/-- The third layer: the second layer's aggregated output times the third weight matrix. -/
theorem v77_eq (x0 : (⟨S100000x128, .f32⟩ : BufTy).Contents (Elt Ideal)) (x1 : (⟨S2x640000, .i32⟩ : BufTy).Contents (Elt Ideal)) (x2 : (⟨S640000x1, .f32⟩ : BufTy).Contents (Elt Ideal)) (x4 : (⟨S3x128x128, .f32⟩ : BufTy).Contents (Elt Ideal)) (x5 : (⟨S3x128, .f32⟩ : BufTy).Contents (Elt Ideal)) :
    val_main_v77 (F := Ideal) x0 x1 x2 x4 x5
      = matProd (R := 100000) (K := 128) (N := 128) (val_main_v74 (F := Ideal) x0 x1 x2 x4 x5) (val_main_v76 (F := Ideal) x4) := by
  unfold val_main_v77
  exact dotGeneral_eq ref_contracts none _ _ _

end Cert.ReferenceIdeal.Products

end
-- ==== Proof.Stages.lean ====
/-
  The kernel program's result, boundary by boundary, is the reference's.

  The two programs' host operations are the same operations in the same order; they differ only where the kernel
  launches a pipelined region and the reference applies `dot_general`. So the kernel's buffer contents at each
  segment boundary (`Gen.W1` … `Gen.W9`) are read here against the reference's stages (`Read.val_main_vN`,
  each a function of the six argument arrays), one stretch at a time:

  * before the first layer: the two index vectors `row`, `col` (the edge list with the self-loops appended), the
    normalised edge weights, the first weight matrix;
  * after each region: its result array is the matrix product of the two operand arrays it found
    (`RegionK.final`), which is the reference's `dot_general` of the same two stages (`Products.vN_eq`);
  * after each following stretch: gather, scale, scatter-add and bias of that product, and the next weight matrix;
  * after the last stretch: the pooled result.

  Each stretch is read from an OPAQUE boundary valuation of which only the needed buffers' contents are known, so
  every closing step compares one short stretch with the reference's stages and stops at the named values.
-/
import proofs.«164463_j11072425689891_1_alg».proof.Proof.Gen.KernelIdeal.Frame
import proofs.«164463_j11072425689891_1_alg».proof.Proof.Gen.ReferenceIdeal.Read
import proofs.«164463_j11072425689891_1_alg».proof.Proof.Region0
import proofs.«164463_j11072425689891_1_alg».proof.Proof.Region1
import proofs.«164463_j11072425689891_1_alg».proof.Proof.Region2
import proofs.«164463_j11072425689891_1_alg».proof.Proof.RefProduct

noncomputable section

namespace Cert.KernelIdeal.Stages

open Idealize.ShloMosaic Idealize.ShloMosaic.TcCoe Idealize.SL.Sem Idealize.ShloMosaic.StableHlo
open Cert.KernelIdeal Cert.KernelIdeal.Gen Cert.Linear
open Cert.ReferenceIdeal.Read (val_main_v4 val_main_v7 val_main_v9 val_main_v14 val_main_v15 val_main_cst_2 val_main_v16 val_main_v32 val_main_v34 val_main_v35 val_main_v53 val_main_v55 val_main_v56 val_main_v74 val_main_v76 val_main_v77 val_main_v107)
open Cert.ReferenceIdeal.Products (v35_eq v56_eq v77_eq)

variable (m : (ℓ : Loc nD τ sig) → Buf (Elt Ideal) ℓ) (ρ : Dev nD → PrngReg) (c : Dev nD)

/-! ## Before the first layer: the first stretch, from the launch memory -/

/-- `row`: the edges' source nodes, then every node once (the self-loops). -/
theorem W1_v4 : W1 m ρ c (Proc.devRef .tc main_v4) = val_main_v4 (F := Ideal) (m ((c.tc : Thread nD τ).loc main_arg1)) := by
  show StableHlo.after hostOps0 (W0 m ρ c) (Proc.devRef .tc main_v4) = _
  after_results_simp
  rfl

/-- `col`: the edges' target nodes, then every node once. -/
theorem W1_v7 : W1 m ρ c (Proc.devRef .tc main_v7) = val_main_v7 (F := Ideal) (m ((c.tc : Thread nD τ).loc main_arg1)) := by
  show StableHlo.after hostOps0 (W0 m ρ c) (Proc.devRef .tc main_v7) = _
  after_results_simp
  rfl

/-- The edge weights, then 2 for every self-loop. -/
theorem W1_v9 : W1 m ρ c (Proc.devRef .tc main_v9) = val_main_v9 (F := Ideal) (m ((c.tc : Thread nD τ).loc main_arg2)) := by
  show StableHlo.after hostOps0 (W0 m ρ c) (Proc.devRef .tc main_v9) = _
  after_results_simp
  rfl

/-- Where a node's weighted in-degree is positive. -/
theorem W1_v14 : W1 m ρ c (Proc.devRef .tc main_v14) = val_main_v14 (F := Ideal) (m ((c.tc : Thread nD τ).loc main_arg1)) (m ((c.tc : Thread nD τ).loc main_arg2)) := by
  show StableHlo.after hostOps0 (W0 m ρ c) (Proc.devRef .tc main_v14) = _
  after_results_simp
  rfl

/-- The reciprocal square root of the weighted in-degree. -/
theorem W1_v15 : W1 m ρ c (Proc.devRef .tc main_v15) = val_main_v15 (F := Ideal) (m ((c.tc : Thread nD τ).loc main_arg1)) (m ((c.tc : Thread nD τ).loc main_arg2)) := by
  show StableHlo.after hostOps0 (W0 m ρ c) (Proc.devRef .tc main_v15) = _
  after_results_simp
  rfl

theorem W1_cst2 : W1 m ρ c (Proc.devRef .tc main_cst_2) = val_main_cst_2 (F := Ideal) := by
  show StableHlo.after hostOps0 (W0 m ρ c) (Proc.devRef .tc main_cst_2) = _
  after_results_simp
  rfl

/-! ## The outlined `where`: its values cross typed references

A module-local function's operations read and write buffers through typed references, transporting contents along
the buffer's type equation; on literal references the equation is `rfl` and each transport is the identity. -/

/-- A value written through a typed reference and read back is itself. -/
theorem ofBuf_toBuf {T : BufTy} (x : TRef sig T) (v : T.Contents (Elt Ideal)) : x.ofBuf (x.toBuf v) = v := by
  rcases x with ⟨r, rfl, hd, hu⟩
  rfl

theorem ofBuf_v14 (v : (⟨S100000, .i1⟩ : BufTy).Contents (Elt Ideal)) :
    (TRef.of (sig := sig) (T := ⟨S100000, .i1⟩) main_v14).ofBuf (Val := Elt Ideal) v = v := rfl
theorem ofBuf_v15 (v : (⟨S100000, .f32⟩ : BufTy).Contents (Elt Ideal)) :
    (TRef.of (sig := sig) (T := ⟨S100000, .f32⟩) main_v15).ofBuf (Val := Elt Ideal) v = v := rfl
theorem ofBuf_cst2 (v : (⟨S_, .f32⟩ : BufTy).Contents (Elt Ideal)) :
    (TRef.of (sig := sig) (T := ⟨S_, .f32⟩) main_cst_2).ofBuf (Val := Elt Ideal) v = v := rfl
theorem toBuf_v16 (v : (⟨S100000, .f32⟩ : BufTy).Contents (Elt Ideal)) :
    (TRef.of (sig := sig) (T := ⟨S100000, .f32⟩) main_v16).toBuf (Val := Elt Ideal) v = v := rfl

/-- The degree's reciprocal square root, zero where the degree is not positive. -/
theorem W2_v16 : W2 m ρ c (Proc.devRef .tc main_v16) = val_main_v16 (F := Ideal) (m ((c.tc : Thread nD τ).loc main_arg1)) (m ((c.tc : Thread nD τ).loc main_arg2)) := by
  have h14 := W1_v14 m ρ c
  have h15 := W1_v15 m ρ c
  have hc := W1_cst2 m ρ c
  show StableHlo.after hostOps0_1 (W1 m ρ c) (Proc.devRef .tc main_v16) = _
  generalize W1 m ρ c = V at h14 h15 hc ⊢
  after_results_simp
  rw [h14, h15, hc]
  simp only [ofBuf_toBuf]
  rw [toBuf_v16, ofBuf_v14, ofBuf_v15, ofBuf_cst2]
  rfl

theorem W2_v4 : W2 m ρ c (Proc.devRef .tc main_v4) = val_main_v4 (F := Ideal) (m ((c.tc : Thread nD τ).loc main_arg1)) := by
  have h := W1_v4 m ρ c
  show StableHlo.after hostOps0_1 (W1 m ρ c) (Proc.devRef .tc main_v4) = _
  generalize W1 m ρ c = V at h ⊢
  after_results_simp
  exact h

theorem W2_v7 : W2 m ρ c (Proc.devRef .tc main_v7) = val_main_v7 (F := Ideal) (m ((c.tc : Thread nD τ).loc main_arg1)) := by
  have h := W1_v7 m ρ c
  show StableHlo.after hostOps0_1 (W1 m ρ c) (Proc.devRef .tc main_v7) = _
  generalize W1 m ρ c = V at h ⊢
  after_results_simp
  exact h

theorem W2_v9 : W2 m ρ c (Proc.devRef .tc main_v9) = val_main_v9 (F := Ideal) (m ((c.tc : Thread nD τ).loc main_arg2)) := by
  have h := W1_v9 m ρ c
  show StableHlo.after hostOps0_1 (W1 m ρ c) (Proc.devRef .tc main_v9) = _
  generalize W1 m ρ c = V at h ⊢
  after_results_simp
  exact h

/-! ## The normalised edge weights and the first weight matrix -/

/-- `norm = dinv[row] · w · dinv[col]`. -/
theorem W3_v32 : W3 m ρ c (Proc.devRef .tc main_v32) = val_main_v32 (F := Ideal) (m ((c.tc : Thread nD τ).loc main_arg1)) (m ((c.tc : Thread nD τ).loc main_arg2)) := by
  have h16 := W2_v16 m ρ c
  have h4 := W2_v4 m ρ c
  have h7 := W2_v7 m ρ c
  have h9 := W2_v9 m ρ c
  show StableHlo.after hostOps0_2 (W2 m ρ c) (Proc.devRef .tc main_v32) = _
  generalize W2 m ρ c = V at h16 h4 h7 h9 ⊢
  after_results_simp
  rw [h16, h4, h7, h9]
  rfl

theorem W3_v4 : W3 m ρ c (Proc.devRef .tc main_v4) = val_main_v4 (F := Ideal) (m ((c.tc : Thread nD τ).loc main_arg1)) := by
  have h := W2_v4 m ρ c
  show StableHlo.after hostOps0_2 (W2 m ρ c) (Proc.devRef .tc main_v4) = _
  generalize W2 m ρ c = V at h ⊢
  after_results_simp
  exact h

theorem W3_v7 : W3 m ρ c (Proc.devRef .tc main_v7) = val_main_v7 (F := Ideal) (m ((c.tc : Thread nD τ).loc main_arg1)) := by
  have h := W2_v7 m ρ c
  show StableHlo.after hostOps0_2 (W2 m ρ c) (Proc.devRef .tc main_v7) = _
  generalize W2 m ρ c = V at h ⊢
  after_results_simp
  exact h

/-- No operation before the first region writes an argument array. -/
theorem W3_arg (b : Ref sig .tc) (hb : b = main_arg0 ∨ b = main_arg3 ∨ b = main_arg4 ∨ b = main_arg5) :
    W3 m ρ c (Proc.devRef .tc b) = W0 m ρ c (Proc.devRef .tc b) := by
  show StableHlo.after hostOps0_2 (StableHlo.after hostOps0_1 (StableHlo.after hostOps0 (W0 m ρ c))) (Proc.devRef .tc b) = _
  rcases hb with rfl | rfl | rfl | rfl <;> after_results_simp

/-- The first layer's weight matrix: slice 0 of the weights. -/
theorem W3_v34 : W3 m ρ c (Proc.devRef .tc main_v34) = val_main_v34 (F := Ideal) (m ((c.tc : Thread nD τ).loc main_arg4)) := by
  show StableHlo.after hostOps0_2 (StableHlo.after hostOps0_1 (StableHlo.after hostOps0 (W0 m ρ c))) (Proc.devRef .tc main_v34) = _
  after_results_simp
  rfl

/-! ## What every later stretch still reads of the first one -/

/-- A boundary valuation that still holds `row`, `col`, the normalised edge weights, and the batch, weight and bias
    arguments. -/
structure Kept (V : Valuation τ sig (Elt Ideal)) : Prop where
  row : V (Proc.devRef .tc main_v4) = val_main_v4 (F := Ideal) (m ((c.tc : Thread nD τ).loc main_arg1))
  col : V (Proc.devRef .tc main_v7) = val_main_v7 (F := Ideal) (m ((c.tc : Thread nD τ).loc main_arg1))
  nrm : V (Proc.devRef .tc main_v32) = val_main_v32 (F := Ideal) (m ((c.tc : Thread nD τ).loc main_arg1)) (m ((c.tc : Thread nD τ).loc main_arg2))
  a3 : V (Proc.devRef .tc main_arg3) = (m ((c.tc : Thread nD τ).loc main_arg3))
  a4 : V (Proc.devRef .tc main_arg4) = (m ((c.tc : Thread nD τ).loc main_arg4))
  a5 : V (Proc.devRef .tc main_arg5) = (m ((c.tc : Thread nD τ).loc main_arg5))

theorem kept3 : Kept m c (W3 m ρ c) where
  row := W3_v4 m ρ c
  col := W3_v7 m ρ c
  nrm := W3_v32 m ρ c
  a3 := W3_arg m ρ c main_arg3 (.inr (.inl rfl))
  a4 := W3_arg m ρ c main_arg4 (.inr (.inr (.inl rfl)))
  a5 := W3_arg m ρ c main_arg5 (.inr (.inr (.inr rfl)))

/-- The first region writes none of them. -/
theorem kept4 : Kept m c (W4 m ρ c) where
  row := (W4_of_ne m ρ c main_v4 (by decide)).trans (kept3 m ρ c).row
  col := (W4_of_ne m ρ c main_v7 (by decide)).trans (kept3 m ρ c).col
  nrm := (W4_of_ne m ρ c main_v32 (by decide)).trans (kept3 m ρ c).nrm
  a3 := (W4_of_ne m ρ c main_arg3 (by decide)).trans (kept3 m ρ c).a3
  a4 := (W4_of_ne m ρ c main_arg4 (by decide)).trans (kept3 m ρ c).a4
  a5 := (W4_of_ne m ρ c main_arg5 (by decide)).trans (kept3 m ρ c).a5

/-- Nor does the stretch after it. -/
theorem Kept.host1 {V : Valuation τ sig (Elt Ideal)} (h : Kept m c V) :
    Kept m c (StableHlo.after (hostOps1 : List (HloOp τ sig (Elt Ideal))) V) where
  row := (show StableHlo.after hostOps1 V (Proc.devRef .tc main_v4) = V (Proc.devRef .tc main_v4) by after_results_simp).trans h.row
  col := (show StableHlo.after hostOps1 V (Proc.devRef .tc main_v7) = V (Proc.devRef .tc main_v7) by after_results_simp).trans h.col
  nrm := (show StableHlo.after hostOps1 V (Proc.devRef .tc main_v32) = V (Proc.devRef .tc main_v32) by after_results_simp).trans h.nrm
  a3 := (show StableHlo.after hostOps1 V (Proc.devRef .tc main_arg3) = V (Proc.devRef .tc main_arg3) by after_results_simp).trans h.a3
  a4 := (show StableHlo.after hostOps1 V (Proc.devRef .tc main_arg4) = V (Proc.devRef .tc main_arg4) by after_results_simp).trans h.a4
  a5 := (show StableHlo.after hostOps1 V (Proc.devRef .tc main_arg5) = V (Proc.devRef .tc main_arg5) by after_results_simp).trans h.a5

theorem kept5 : Kept m c (W5 m ρ c) := (kept4 m ρ c).host1

theorem kept6 : Kept m c (W6 m ρ c) where
  row := (W6_of_ne m ρ c main_v4 (by decide)).trans (kept5 m ρ c).row
  col := (W6_of_ne m ρ c main_v7 (by decide)).trans (kept5 m ρ c).col
  nrm := (W6_of_ne m ρ c main_v32 (by decide)).trans (kept5 m ρ c).nrm
  a3 := (W6_of_ne m ρ c main_arg3 (by decide)).trans (kept5 m ρ c).a3
  a4 := (W6_of_ne m ρ c main_arg4 (by decide)).trans (kept5 m ρ c).a4
  a5 := (W6_of_ne m ρ c main_arg5 (by decide)).trans (kept5 m ρ c).a5

theorem Kept.host2 {V : Valuation τ sig (Elt Ideal)} (h : Kept m c V) :
    Kept m c (StableHlo.after (hostOps2 : List (HloOp τ sig (Elt Ideal))) V) where
  row := (show StableHlo.after hostOps2 V (Proc.devRef .tc main_v4) = V (Proc.devRef .tc main_v4) by after_results_simp).trans h.row
  col := (show StableHlo.after hostOps2 V (Proc.devRef .tc main_v7) = V (Proc.devRef .tc main_v7) by after_results_simp).trans h.col
  nrm := (show StableHlo.after hostOps2 V (Proc.devRef .tc main_v32) = V (Proc.devRef .tc main_v32) by after_results_simp).trans h.nrm
  a3 := (show StableHlo.after hostOps2 V (Proc.devRef .tc main_arg3) = V (Proc.devRef .tc main_arg3) by after_results_simp).trans h.a3
  a4 := (show StableHlo.after hostOps2 V (Proc.devRef .tc main_arg4) = V (Proc.devRef .tc main_arg4) by after_results_simp).trans h.a4
  a5 := (show StableHlo.after hostOps2 V (Proc.devRef .tc main_arg5) = V (Proc.devRef .tc main_arg5) by after_results_simp).trans h.a5

theorem kept7 : Kept m c (W7 m ρ c) := (kept6 m ρ c).host2

theorem kept8 : Kept m c (W8 m ρ c) where
  row := (W8_of_ne m ρ c main_v4 (by decide)).trans (kept7 m ρ c).row
  col := (W8_of_ne m ρ c main_v7 (by decide)).trans (kept7 m ρ c).col
  nrm := (W8_of_ne m ρ c main_v32 (by decide)).trans (kept7 m ρ c).nrm
  a3 := (W8_of_ne m ρ c main_arg3 (by decide)).trans (kept7 m ρ c).a3
  a4 := (W8_of_ne m ρ c main_arg4 (by decide)).trans (kept7 m ρ c).a4
  a5 := (W8_of_ne m ρ c main_arg5 (by decide)).trans (kept7 m ρ c).a5

/-! ## The first layer -/

/-- The first region leaves `x · W₀`, the reference's first `dot_general`. -/
theorem W4_v35 : W4 m ρ c (Proc.devRef .tc main_v35) = val_main_v35 (F := Ideal) (m ((c.tc : Thread nD τ).loc main_arg0)) (m ((c.tc : Thread nD τ).loc main_arg4)) := by
  refine (W4_arr m ρ c 2).trans ((Region0.final (V3 m ρ) c).trans ?_)
  rw [v35_eq]
  show matProd (R := 100000) (K := 128) (N := 128) (W3 m ρ c (Proc.devRef .tc main_arg0)) (W3 m ρ c (Proc.devRef .tc main_v34)) = _
  rw [W3_arg m ρ c main_arg0 (.inl rfl), W3_v34 m ρ c]

/-- Gather along `row`, scale by `norm`, scatter-add along `col`, add the bias. -/
theorem W5_v53 : W5 m ρ c (Proc.devRef .tc main_v53) = val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  have K := kept4 m ρ c
  show StableHlo.after hostOps1 (W4 m ρ c) (Proc.devRef .tc main_v53) = _
  after_results_simp
  rw [W4_v35 m ρ c, K.row, K.col, K.nrm, K.a5]
  rfl

/-- The second layer's weight matrix: slice 1 of the weights. -/
theorem W5_v55 : W5 m ρ c (Proc.devRef .tc main_v55) = val_main_v55 (F := Ideal) (m ((c.tc : Thread nD τ).loc main_arg4)) := by
  have K := kept4 m ρ c
  show StableHlo.after hostOps1 (W4 m ρ c) (Proc.devRef .tc main_v55) = _
  after_results_simp
  rw [K.a4]
  rfl

/-! ## The second layer -/

theorem W6_v56 : W6 m ρ c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (W6_arr m ρ c 2).trans ((Region1.final (V5 m ρ) c).trans ?_)
  rw [v56_eq]
  show matProd (R := 100000) (K := 128) (N := 128) (W5 m ρ c (Proc.devRef .tc main_v53)) (W5 m ρ c (Proc.devRef .tc main_v55)) = _
  rw [W5_v53 m ρ c, W5_v55 m ρ c]

theorem W7_v74 : W7 m ρ c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  have K := kept6 m ρ c
  show StableHlo.after hostOps2 (W6 m ρ c) (Proc.devRef .tc main_v74) = _
  after_results_simp
  rw [W6_v56 m ρ c, K.row, K.col, K.nrm, K.a5]
  rfl

/-- The third layer's weight matrix: slice 2 of the weights. -/
theorem W7_v76 : W7 m ρ c (Proc.devRef .tc main_v76) = val_main_v76 (F := Ideal) (m ((c.tc : Thread nD τ).loc main_arg4)) := by
  have K := kept6 m ρ c
  show StableHlo.after hostOps2 (W6 m ρ c) (Proc.devRef .tc main_v76) = _
  after_results_simp
  rw [K.a4]
  rfl

/-! ## The third layer, and the pooling -/

theorem W8_v77 : W8 m ρ c (Proc.devRef .tc main_v77) = val_main_v77 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (W8_arr m ρ c 2).trans ((Region2.final (V7 m ρ) c).trans ?_)
  rw [v77_eq]
  show matProd (R := 100000) (K := 128) (N := 128) (W7 m ρ c (Proc.devRef .tc main_v74)) (W7 m ρ c (Proc.devRef .tc main_v76)) = _
  rw [W7_v74 m ρ c, W7_v76 m ρ c]

/-- THE RESULT: the per-graph sums of the third layer's output over the per-graph node counts (at least 1). -/
theorem result : W9 m ρ c (Proc.devRef .tc main_v107) = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have K := kept8 m ρ c
  show StableHlo.after hostOps3 (W8 m ρ c) (Proc.devRef .tc main_v107) = _
  after_results_simp
  rw [W8_v77 m ρ c, K.row, K.col, K.nrm, K.a5, K.a3]
  rfl

end Cert.KernelIdeal.Stages

end
-- ==== Proof.lean ====
/-
  A three-layer graph convolution with mean pooling, written two ways.

  Both programs build the same message-passing operator on the host — the edge list with a self-loop of weight 2
  appended per node, the weighted in-degrees by a scatter-add, their reciprocal square roots where positive, the
  symmetric normalisation `norm = dinv[row] · w · dinv[col]` — and then three times over compute
  `x ← scatter_add(norm · h[row], col) + b` with `h = x · W`, and finally divide the per-graph sums by the
  per-graph node counts. They differ only in how `h = x · W` is computed: the reference by one host `dot_general`
  of the 100000 × 128 features with the 128 × 128 weights; the kernel by a pipelined region that walks ten blocks
  of 10000 rows, rounds the operands to bf16, multiplies on the matrix unit into a zero accumulator, and writes
  each block of the product back.

  At the ideal values a change of float format is the identity and both products are the same sum
  `∑ k, x (r, k) · W (k, q)` of extended reals (Proof/LibMatProd.lean), a row block of a product is the product of
  the row block (Proof/Region0–2.lean), and every other operation is the same operation applied to the same values
  (Proof/Stages.lean). So the two results are one function of the six arguments, with no use of the finiteness
  precondition. The idealization rewrote nothing, so `preserves` is `True`; the three frames are the generated
  frame certificates and the reference's generated run.
-/
import proofs.«164463_j11072425689891_1_alg».proof.Defs
import proofs.«164463_j11072425689891_1_alg».proof.Proof.Gen.Kernel
import proofs.«164463_j11072425689891_1_alg».proof.Proof.Gen.Kernel.Skeleton
import proofs.«164463_j11072425689891_1_alg».proof.Proof.Gen.Kernel.Launch
import proofs.«164463_j11072425689891_1_alg».proof.Proof.Gen.Kernel.Points
import proofs.«164463_j11072425689891_1_alg».proof.Proof.Gen.Kernel.Frame
import proofs.«164463_j11072425689891_1_alg».proof.Proof.Gen.KernelIdeal
import proofs.«164463_j11072425689891_1_alg».proof.Proof.Gen.KernelIdeal.Skeleton
import proofs.«164463_j11072425689891_1_alg».proof.Proof.Gen.KernelIdeal.Launch
import proofs.«164463_j11072425689891_1_alg».proof.Proof.Gen.KernelIdeal.Points
import proofs.«164463_j11072425689891_1_alg».proof.Proof.Gen.KernelIdeal.Frame
import proofs.«164463_j11072425689891_1_alg».proof.Proof.Gen.ReferenceIdeal
import proofs.«164463_j11072425689891_1_alg».proof.Proof.Gen.ReferenceIdeal.Run
import proofs.«164463_j11072425689891_1_alg».proof.Proof.Gen.ReferenceIdeal.Read
import proofs.«164463_j11072425689891_1_alg».proof.Proof.Gen.Pre_finite_inputs
import proofs.«164463_j11072425689891_1_alg».proof.Proof.KernelRun
import proofs.«164463_j11072425689891_1_alg».proof.Proof.Stages
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the pooled output of the same three
    layers: the kernel's result is the last boundary's contents, which is the reference's last stage of the kernel's
    arguments (`Stages.result`); the reference's result is that stage of its own arguments, which are the same. -/
theorem algebraic : Cert.algebraic_KernelIdeal_ReferenceIdeal := by
  intro m ρ m' ρ' _ hagree
  refine ⟨fun c => Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v107_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
